-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel

variable [Facts]

def fn {F : FTy → Type} [FloatOps F] (main_arg0 : FVec F S16384x1024 .f32) (main_arg1 : FVec F S16384x1024 .f32) (main_arg2 : FVec F S16384x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S16384x1024 .f32 := Host.absf main_arg2
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : IVec S_ 1 := andi main_v8 main_v12
  main_v13
-- ==== Kernel.lean ====
abbrev S16384x1024 : Shape := ⟨2, ![16384, 1024]⟩
abbrev S8x256 : Shape := ⟨2, ![8, 256]⟩
abbrev S1024x1024 : Shape := ⟨2, ![1024, 1024]⟩
abbrev S8x128 : Shape := ⟨2, ![8, 128]⟩
abbrev S1x1 : Shape := ⟨2, ![1, 1]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x256 : Shape := ⟨2, ![1, 256]⟩
abbrev S256 : Shape := ⟨1, ![256]⟩
abbrev S_ : Shape := ⟨0, ![]⟩

abbrev nBuf : Space → Nat
  | .hbm => 21
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S8x256, .f32⟩
  | .hbm, ⟨4, _⟩ => ⟨S8x256, .f32⟩
  | .hbm, ⟨5, _⟩ => ⟨S1x256, .f32⟩
  | .hbm, ⟨6, _⟩ => ⟨S256, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S1x256, .f32⟩
  | .hbm, ⟨12, _⟩ => ⟨S256, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S8x128, .f32⟩
  | .local _ .vmem, ⟨7, _⟩ => ⟨S8x128, .f32⟩
  | .local _ .vmem, ⟨8, _⟩ => ⟨S8x128, .f32⟩
  | .local _ .vmem, ⟨9, _⟩ => ⟨S8x128, .f32⟩
  | .local _ .vmem, ⟨10, _⟩ => ⟨S1x1, .f32⟩
  | .local _ .vmem, ⟨11, _⟩ => ⟨S1x1, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_cst_4 : Ref sig .tc := ⟨.hbm, 19, rfl⟩
abbrev main_v10 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 8], ![false, false]⟩

def k0_mult1 : BitVec 32 :=
  let c0_i32_2 : BitVec 32 := 0#32
  let c512_i32 : BitVec 32 := 512#32
  let v5 : BitVec 32 := Scalar.muli c0_i32_2 c512_i32
  v5
def k0_off1 (c0_i32_2 : BitVec 32) : Fin 2 → Nat :=
  let c512_i32 : BitVec 32 := 512#32
  let v5 : BitVec 32 := Scalar.muli c0_i32_2 c512_i32
  let v6 : BitVec 32 := v5
  let v7 : Index := Scalar.indexCast v6
  let c0 : Index := 0#32
  ![v7.toNat, 0]
def k0_mult2 : BitVec 32 :=
  let c1_i32 : BitVec 32 := 1#32
  let c512_i32_11 : BitVec 32 := 512#32
  let v35 : BitVec 32 := Scalar.muli c1_i32 c512_i32_11
  v35
def k0_cond2 (i : grid0.Coords) : BitVec 1 :=
  let arg1 : BitVec 32 := BitVec.ofNat 32 (i 1).val
  let c7_i32 : BitVec 32 := 7#32
  let v75 : BitVec 1 := Scalar.cmpi .eq arg1 c7_i32
  let v76 : BitVec 32 := Scalar.extui v75
  let c0_i32_29 : BitVec 32 := 0#32
  let v77 : BitVec 1 := Scalar.cmpi .ne v76 c0_i32_29
  v77

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  h_S512x1024 : 0 < S512x1024.numel
  reduces_S512x1024_S512 : S512x1024.Reduces [1] S512
  shapeCasts_S512_S512x1 : S512.ShapeCasts S512x1
  natLt_1_32 : 1 < 32
  reduces_S512x1_S1 : S512x1.Reduces [0] S1
  shapeCasts_S1_S1x1 : S1.ShapeCasts S1x1
  broadcasts_S1x1_S8x128 : S1x1.Broadcasts S8x128
  inb_S8x128_S8x128_0_0 : ∀ a, (![0, 0] : Fin 2 → Nat) a + S8x128.size a ≤ S8x128.size a
  h_S8x128 : 0 < S8x128.numel
  slices_S8x256_S1x256_0_0 : S8x256.Slices ![0, 0] S1x256
  shapeCasts_S1x256_S256 : S1x256.ShapeCasts S256
  reducesTo_S256_S_d0 : S256.ReducesTo [0] S_
  h_S_ : 0 < S_.numel
  hrank0 : 0 < grid0.rank
  k0_mult1_dvd : 512 ∣ k0_mult1.toNat
  k0_off1_inb : ∀ (r : Fin 2), ∀ a, (k0_off1 (BitVec.ofNat 32 r.val)) a + S512x1024.size a ≤ S1024x1024.size a
  k0_mult2_dvd : 512 ∣ k0_mult2.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S16384x1024.size a
  hwx0_1 : ∀ i : grid0.Coords, EltTy.bits .f32 = 32 ∨ (Rect.block (s := S16384x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S16384x1024.size a
  hwx0_2 : ∀ i : grid0.Coords, EltTy.bits .f32 = 32 ∨ (Rect.block (s := S16384x1024) S1024x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S8x256.size a
  hwx0_3 : ∀ i : grid0.Coords, EltTy.bits .f32 = 32 ∨ (Rect.block (s := S8x256) S8x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x128.size a ≤ S8x256.size a
  hwx0_4 : ∀ i : grid0.Coords, EltTy.bits .f32 = 32 ∨ (Rect.block (s := S8x256) S8x128.size (cc0_transform_4 i) (hinb0_4 i)).WholeWords (EltTy.packing .f32)

variable [Facts₀]

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S8x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S8x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun i => !(k0_cond2 i == 1#1) | ⟨_ + 5, h⟩ => absurd h (Nat.not_lt.2 (Nat.le_add_left _ _))

class Facts : Prop extends Facts₀ where

variable [Facts]
-- ==== ReferenceIdeal.lean ====
abbrev S16384x1024 : Shape := ⟨2, ![16384, 1024]⟩
abbrev S_ : Shape := ⟨0, ![]⟩
abbrev S16384 : Shape := ⟨1, ![16384]⟩

abbrev nBuf : Space → Nat
  | .hbm => 28
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1024, .f32⟩
  | .hbm, ⟨8, _⟩ => ⟨S16384x1024, .f32⟩
  | .hbm, ⟨9, _⟩ => ⟨S_, .f32⟩
  | .hbm, ⟨10, _⟩ => ⟨S16384, .f32⟩
  | .hbm, ⟨11, _⟩ => ⟨S16384, .f32⟩
  | .hbm, ⟨12, _⟩ => ⟨S_, .f32⟩
  | .hbm, ⟨13, _⟩ => ⟨S16384, .f32⟩
  | .hbm, ⟨14, _⟩ => ⟨S16384, .f32⟩
  | .hbm, ⟨15, _⟩ => ⟨S_, .f32⟩
  | .hbm, ⟨16, _⟩ => ⟨S16384, .f32⟩
  | .hbm, ⟨17, _⟩ => ⟨S16384, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S16384, .i1⟩
  | .hbm, ⟨23, _⟩ => ⟨S16384, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_call0_cst : Ref sig .tc := ⟨.hbm, 15, rfl⟩
abbrev main_call0_v0 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_cst_5 : Ref sig .tc := ⟨.hbm, 26, rfl⟩
abbrev main_v15 : Ref sig .tc := ⟨.hbm, 27, rfl⟩

abbrev nD : Nat := 1
abbrev τ : Topo := Topo.v7x

variable {F : FTy → Type} [FloatOps F]

class Facts₀ : Prop where
  reducesTo_S16384x1024_S16384_d1 : S16384x1024.ReducesTo [1] S16384
  h_S_ : 0 < S_.numel
  bcast_S_S16384 : S_.BroadcastsInDim S16384 (![] : Fin 0 → Fin S16384.rank)
  reducesTo_S16384_S_d0 : S16384.ReducesTo [0] S_

variable [Facts₀]

class Facts : Prop extends Facts₀ where

variable [Facts]
-- ==== Proof.TripletSpec.lean ====
/-
  The triplet margin loss and the accuracy count as functions of the three argument arrays, over the extended reals.

  For a row `r` of the [16384, 1024] arrays `a` (anchor), `p` (positive), `n` (negative):
    `sqd a p r`  = Σ_k (a[r,k] − p[r,k])²               the squared distance of the row pair,
    `lossRow`    = max (sqd a p r − sqd a n r + margin) 0  the hinge term of the row,
    `hitRow`     = 1 if sqd a n r < sqd a p r, else 0      the row's count in the accuracy,
  and each result is the sum of its row terms over the 16384 rows divided by 16384 (`meanOf`). `kernelMean` is the same
  sum as the kernel arranges it: by grid point, by core, each core's sum 128 times, divided by 128 and by 16384.
-/
import Idealize.ShloMosaic.PureOps.Ideal
import Idealize.ShloMosaic.PureOps.Ideal.Laws
import Idealize.ShloMosaic.Lib.ValueIdx

noncomputable section

namespace Cert.TripletSpec

open Idealize.ShloMosaic Idealize.ShloMosaic.ValueIdx
open scoped BigOperators

/-- A [16384, 1024] array of extended reals. -/
abbrev Arr : Type := (⟨2, ![16384, 1024]⟩ : Shape).Idx → EReal

/-- The squared distance between row `r` of `a` and row `r` of `b`. -/
def sqd (a b : Arr) (r : Fin 16384) : EReal :=
  ∑ k : Fin 1024, (a (ix2 r k) - b (ix2 r k)) * (a (ix2 r k) - b (ix2 r k))

/-- The margin, the binary32 value nearest 0.2 (the same word in both programs, never evaluated). -/
abbrev margin : EReal := Ideal.ofBits .f32 0x3E4CCCCD#32

/-- The count 16384 as both programs write it (the binary32 word of 16384.0). -/
abbrev rows : EReal := Ideal.ofBits .f32 0x46800000#32

/-- The hinge term of row `r`. -/
def lossRow (a p n : Arr) (r : Fin 16384) : EReal := max (sqd a p r - sqd a n r + margin) 0

/-- The accuracy term of row `r`: one when the positive is farther than the negative, else zero. -/
def hitRow (a p n : Arr) (r : Fin 16384) : EReal :=
  (((BitVec.ofBool (decide (sqd a n r < sqd a p r))).toNat : ℝ) : EReal)

/-- The mean of a row term over the 16384 rows. -/
def meanOf (f : Fin 16384 → EReal) : EReal := Ideal.div (∑ r : Fin 16384, f r) rows

/-- A row term read at any natural number: zero past the last row. -/
def tot (f : Fin 16384 → EReal) (r : ℕ) : EReal := if h : r < 16384 then f ⟨r, h⟩ else 0

/-- What grid point `t` adds to its core's accumulator: the terms of its 1024 rows, `1024·t … 1024·t + 1023`, summed
    in two halves of 512 rows. -/
def pointSum (f : Fin 16384 → EReal) (t : ℕ) : EReal :=
  ∑ r : Fin 512, tot f (1024 * t + r.val) + ∑ r : Fin 512, tot f (1024 * t + 512 + r.val)

/-- What core `q`'s accumulator holds after its 8 grid points `8·q … 8·q + 7`. -/
def coreSum (f : Fin 16384 → EReal) (q : ℕ) : EReal := ∑ s ∈ Finset.range 8, pointSum f (8 * q + s)

/-- The kernel's result: each core's sum is broadcast over its 128 columns of the [8, 256] output; row 0 is summed,
    divided by 128 (the binary32 word of 128.0) and then by 16384. -/
def kernelMean (f : Fin 16384 → EReal) : EReal :=
  Ideal.div (Ideal.div (∑ j : Fin 256, coreSum f (j.val / 128)) (Ideal.ofBits .f32 0x43000000#32)) rows

/-- A one-bit word widened to 32 bits and read signed is the bit read unsigned: the two programs' conversions of a
    comparison's result to a float agree. -/
theorem bit_signed_eq_unsigned (b : Bool) :
    ((((BitVec.ofBool b).setWidth 32).toInt : ℝ) : EReal) = (((BitVec.ofBool b).toNat : ℝ) : EReal) := by
  cases b <;> simp

end Cert.TripletSpec

end
-- ==== Proof.TripletRef.lean ====
/-
  The reference program computes the specification.

  The reference subtracts the arrays, squares, sums each row's 1024 entries from the zero word (twice: anchor against
  positive, anchor against negative), forms the hinge term  max (d⁺ − d⁻ + margin) 0  and the comparison bit  d⁺ > d⁻
  row by row, sums each over the 16384 rows from the zero word, and divides by the word of 16384.  Read index by index
  at the ideal values these are the row terms of the specification, summed over the rows and divided by that word: its
  two results are the mean loss and the mean accuracy count.
-/
import proofs.«111520_j128849019170_2_alg».proof.Proof.Gen.ReferenceIdeal.Read
import proofs.«111520_j128849019170_2_alg».proof.Proof.TripletSpec
import Idealize.ShloMosaic.Lib.ValueIdx
import Idealize.ShloMosaic.PureOps.Ideal.Laws

noncomputable section

namespace Cert.TripletRef

open Idealize.ShloMosaic Idealize.ShloMosaic.ValueIdx Idealize.ShloMosaic.TcCoe Idealize.SL.Sem
open Cert.TripletSpec
open scoped BigOperators

/-- A [16384, 1024] array of ideal values, as the reference's operations take it. -/
abbrev RefArr : Type := (⟨Cert.ReferenceIdeal.S16384x1024, .f32⟩ : BufTy).Contents (Elt Ideal)

/-- The index of row r, column k that the first row sum reads is the pair (r, k). -/
theorem idx_v2_eq (r : Fin 16384) (k : Fin 1024) :
    Cert.ReferenceIdeal.Read.idx_main_v2 (ix1 r) k = ix2 r k :=
  funext fun a => by match a with | ⟨0, _⟩ => rfl | ⟨1, _⟩ => rfl

/-- The index of row r, column k that the second row sum reads is the pair (r, k). -/
theorem idx_v5_eq (r : Fin 16384) (k : Fin 1024) :
    Cert.ReferenceIdeal.Read.idx_main_v5 (ix1 r) k = ix2 r k :=
  funext fun a => by match a with | ⟨0, _⟩ => rfl | ⟨1, _⟩ => rfl

/-- The reference's first row sum at row r: zero plus Σ_k (a[r,k] − p[r,k])², the squared distance of the row pair. -/
theorem ref_sqd_pos (x0 x1 : RefArr) (r : Fin 16384) :
    Cert.ReferenceIdeal.Read.val_main_v2 (F := Ideal) x0 x1 (ix1 r) = sqd x0 x1 r := by
  rw [Cert.ReferenceIdeal.Read.val_main_v2_apply, Cert.ReferenceIdeal.Read.val_main_cst_apply]
  simp only [Cert.ReferenceIdeal.Read.val_main_v1_apply, Cert.ReferenceIdeal.Read.val_main_v0_apply, idx_v2_eq,
    Ideal.ofBits_def, Ideal.ofBits_zero_f32, zero_add, Ideal.mulf_def, Ideal.subf_def]
  rfl

/-- The reference's second row sum at row r: zero plus Σ_k (a[r,k] − n[r,k])². -/
theorem ref_sqd_neg (x0 x2 : RefArr) (r : Fin 16384) :
    Cert.ReferenceIdeal.Read.val_main_v5 (F := Ideal) x0 x2 (ix1 r) = sqd x0 x2 r := by
  rw [Cert.ReferenceIdeal.Read.val_main_v5_apply, Cert.ReferenceIdeal.Read.val_main_cst_0_apply]
  simp only [Cert.ReferenceIdeal.Read.val_main_v4_apply, Cert.ReferenceIdeal.Read.val_main_v3_apply, idx_v5_eq,
    Ideal.ofBits_def, Ideal.ofBits_zero_f32, zero_add, Ideal.mulf_def, Ideal.subf_def]
  rfl

/-- The reference's hinge vector at row r: max (d⁺ − d⁻ + margin) 0, the broadcast margin and the broadcast zero read
    at their one entry. -/
theorem ref_lossRow (x0 x1 x2 : RefArr) (r : Fin 16384) :
    Cert.ReferenceIdeal.Read.val_main_v9 (F := Ideal) x0 x1 x2 (ix1 r) = lossRow x0 x1 x2 r := by
  rw [Cert.ReferenceIdeal.Read.val_main_v9_apply, Cert.ReferenceIdeal.Read.val_main_v8_apply,
    Cert.ReferenceIdeal.Read.val_main_v6_apply, Cert.ReferenceIdeal.Read.val_main_v7_apply,
    Cert.ReferenceIdeal.Read.val_main_cst_1_apply, Cert.ReferenceIdeal.Read.val_main_call0_v0_apply,
    Cert.ReferenceIdeal.Read.val_main_call0_cst_apply, ref_sqd_pos, ref_sqd_neg]
  simp only [Ideal.maximumf_def, Ideal.addf_def, Ideal.subf_def, Ideal.ofBits_def, Ideal.ofBits_zero_f32]
  rfl

/-- The reference's converted comparison at row r: the bit of d⁻ < d⁺ read as a natural number. -/
theorem ref_hitRow (x0 x1 x2 : RefArr) (r : Fin 16384) :
    Cert.ReferenceIdeal.Read.val_main_v13 (F := Ideal) x0 x1 x2 (ix1 r) = hitRow x0 x1 x2 r := by
  rw [Cert.ReferenceIdeal.Read.val_main_v13_apply, Cert.ReferenceIdeal.Read.val_main_v12_apply, ref_sqd_pos,
    ref_sqd_neg]
  rfl

/-- The indices of a length-16384 vector are its 16384 positions. -/
def rowEquiv : Cert.ReferenceIdeal.S16384.Idx ≃ Fin 16384 where
  toFun i := i 0
  invFun r := ix1 r
  left_inv i := (eq_ix1 i).symm
  right_inv _ := rfl

/-- A sum over the indices of a length-16384 vector is the sum over its positions. -/
theorem sum_rows (g : Cert.ReferenceIdeal.S16384.Idx → EReal) : ∑ j, g j = ∑ r : Fin 16384, g (ix1 r) :=
  (Equiv.sum_comp rowEquiv.symm g).symm

/-- The reference's first result: the hinge terms summed over the rows from zero, divided by the word of 16384. -/
theorem ref_loss (x0 x1 x2 : (⟨Cert.ReferenceIdeal.S16384x1024, .f32⟩ : BufTy).Contents (Elt Ideal)) :
    Cert.ReferenceIdeal.Read.val_main_v11 (F := Ideal) x0 x1 x2 = fun _ => Cert.TripletSpec.meanOf (Cert.TripletSpec.lossRow x0 x1 x2) := by
  funext i
  rw [Cert.ReferenceIdeal.Read.val_main_v11_apply, Cert.ReferenceIdeal.Read.val_main_v10_apply,
    Cert.ReferenceIdeal.Read.val_main_cst_2_apply, Cert.ReferenceIdeal.Read.val_main_cst_3_apply, sum_rows]
  simp only [ref_lossRow, Ideal.hostDivf_def, Ideal.ofBits_def, Ideal.ofBits_zero_f32, zero_add]
  rfl

/-- The reference's second result: the accuracy terms summed over the rows from zero, divided by the word of 16384. -/
theorem ref_hit (x0 x1 x2 : (⟨Cert.ReferenceIdeal.S16384x1024, .f32⟩ : BufTy).Contents (Elt Ideal)) :
    Cert.ReferenceIdeal.Read.val_main_v15 (F := Ideal) x0 x1 x2 = fun _ => Cert.TripletSpec.meanOf (Cert.TripletSpec.hitRow x0 x1 x2) := by
  funext i
  rw [Cert.ReferenceIdeal.Read.val_main_v15_apply, Cert.ReferenceIdeal.Read.val_main_v14_apply,
    Cert.ReferenceIdeal.Read.val_main_cst_4_apply, Cert.ReferenceIdeal.Read.val_main_cst_5_apply, sum_rows]
  simp only [ref_hitRow, Ideal.hostDivf_def, Ideal.ofBits_def, Ideal.ofBits_zero_f32, zero_add]
  rfl

end Cert.TripletRef

end
-- ==== Proof.TripletAlgebra.lean ====
/-
  The regrouping law: the kernel's mean is the mean.

  The kernel adds the 16384 row terms in pieces: each of its two cores takes 8 grid points, each grid point 1024
  consecutive rows in two halves of 512, so core q holds the sum of rows 8192·q … 8192·q + 8191. Each core's sum is
  then written to 128 columns, the 256 columns are added, and the total is divided by 128 and by 16384. Addition of
  extended reals is commutative and associative, so the pieces regroup freely: the 256 columns add to 128 times the
  sum of all rows, dividing by 128 gives that sum back (at the infinities too), and what remains is the sum of the row
  terms divided by 16384.
-/
import proofs.«111520_j128849019170_2_alg».proof.Proof.TripletSpec

noncomputable section

namespace Cert.TripletAlgebra

open Idealize.ShloMosaic Cert.TripletSpec
open scoped BigOperators

/-- Consecutive blocks: a blocks of b consecutive terms each are the first a·b terms. -/
theorem sum_blocks {M : Type*} [AddCommMonoid M] (g : ℕ → M) (b a : ℕ) :
    ∑ s ∈ Finset.range a, ∑ r ∈ Finset.range b, g (b * s + r) = ∑ m ∈ Finset.range (a * b), g m := by
  induction a with
  | zero => simp
  | succ a ih =>
    rw [Finset.sum_range_succ, ih, Nat.add_one_mul, Finset.sum_range_add, Nat.mul_comm b a]

/-- A grid point's two halves of 512 rows are its 1024 consecutive rows. -/
theorem pointSum_eq (f : Fin 16384 → EReal) (t : ℕ) :
    pointSum f t = ∑ r ∈ Finset.range 1024, tot f (1024 * t + r) := by
  unfold pointSum
  rw [Fin.sum_univ_eq_sum_range (fun r => tot f (1024 * t + r)) 512,
    Fin.sum_univ_eq_sum_range (fun r => tot f (1024 * t + 512 + r)) 512]
  have h := Finset.sum_range_add (fun r => tot f (1024 * t + r)) 512 512
  simp only [← Nat.add_assoc] at h
  exact h.symm

/-- A core's 8 grid points are its 8192 consecutive rows. -/
theorem coreSum_eq (f : Fin 16384 → EReal) (q : ℕ) :
    coreSum f q = ∑ m ∈ Finset.range 8192, tot f (8192 * q + m) := by
  unfold coreSum
  simp only [pointSum_eq]
  calc ∑ s ∈ Finset.range 8, ∑ r ∈ Finset.range 1024, tot f (1024 * (8 * q + s) + r)
      = ∑ s ∈ Finset.range 8, ∑ r ∈ Finset.range 1024, tot f (8192 * q + (1024 * s + r)) := by
        refine Finset.sum_congr rfl fun s _ => Finset.sum_congr rfl fun r _ => ?_
        congr 1; omega
    _ = ∑ m ∈ Finset.range 8192, tot f (8192 * q + m) :=
        sum_blocks (fun m => tot f (8192 * q + m)) 1024 8

/-- The sum over the rows is the sum of the first 16384 terms read at natural numbers. -/
theorem sum_eq_tot (f : Fin 16384 → EReal) : ∑ r : Fin 16384, f r = ∑ m ∈ Finset.range 16384, tot f m := by
  rw [← Fin.sum_univ_eq_sum_range (fun m => tot f m) 16384]
  refine Finset.sum_congr rfl fun r _ => ?_
  unfold tot
  rw [dif_pos r.isLt]

/-- The two cores' sums are the sum over all rows. -/
theorem total_eq_cores (f : Fin 16384 → EReal) : ∑ r : Fin 16384, f r = coreSum f 0 + coreSum f 1 := by
  rw [sum_eq_tot, coreSum_eq, coreSum_eq]
  simp only [Nat.mul_zero, Nat.zero_add, Nat.mul_one]
  exact Finset.sum_range_add (fun m => tot f m) 8192 8192

/-- 256 columns of which the first 128 hold c 0 and the last 128 hold c 1 add to 128 of each. -/
theorem columns_sum (c : ℕ → EReal) : ∑ j : Fin 256, c (j.val / 128) = 128 • c 0 + 128 • c 1 := by
  rw [Fin.sum_univ_eq_sum_range (fun j => c (j / 128)) 256]
  have h0 : ∀ j ∈ Finset.range 128, c (j / 128) = c 0 := fun j hj => by
    rw [Nat.div_eq_of_lt (Finset.mem_range.mp hj)]
  have h1 : ∀ j ∈ Finset.range 128, c ((128 + j) / 128) = c 1 := fun j hj => by
    have h : (128 + j) / 128 = 1 := by have := Finset.mem_range.mp hj; omega
    rw [h]
  calc ∑ j ∈ Finset.range 256, c (j / 128)
      = ∑ j ∈ Finset.range 128, c (j / 128) + ∑ j ∈ Finset.range 128, c ((128 + j) / 128) :=
        Finset.sum_range_add (fun j => c (j / 128)) 128 128
    _ = 128 • c 0 + 128 • c 1 := by
        rw [Finset.sum_congr rfl h0, Finset.sum_congr rfl h1, Finset.sum_const, Finset.sum_const, Finset.card_range]

/-- The divisor word is the real number 128. -/
theorem word_128 : Ideal.ofBits .f32 0x43000000#32 = ((128 : ℝ) : EReal) := by
  simp [Ideal.ofBits, Ideal.ieee, -EReal.coe_mul]; norm_num

/-- 128 copies of x divided by 128 are x, for every extended real x: 128 · x · (1/128) = x · (128 · (1/128)). -/
theorem div_nsmul_128 (x : EReal) : Ideal.div (128 • x) (Ideal.ofBits .f32 0x43000000#32) = x := by
  have h : ((128 : ℕ) : EReal) * ((1 / 128 : ℝ) : EReal) = 1 := by
    rw [← EReal.coe_natCast, ← EReal.coe_mul]; norm_num
  rw [word_128, Ideal.div_coe (by norm_num : (128 : ℝ) ≠ 0), EReal.nsmul_eq_mul, mul_comm _ x, mul_assoc, h, mul_one]

/-- The kernel's regrouped, twice-divided sum is the mean of the row terms. -/
theorem kernelMean_eq (f : Fin 16384 → EReal) :
    Cert.TripletSpec.kernelMean f = Cert.TripletSpec.meanOf f := by
  unfold kernelMean meanOf
  rw [columns_sum (coreSum f), ← nsmul_add, ← total_eq_cores, div_nsmul_128]

end Cert.TripletAlgebra

end
-- ==== Proof.TripletPieces.lean ====
/-
  What each control case of the body leaves in the two accumulators it carries between grid points, and in the two
  output blocks at a core's last point, as the printed payloads applied to the two 512-row halves of the point's
  three input tiles.

  The body has three control cases: a core's first point (the accumulators are reset to zero, then added to), a middle
  point (added to), and a core's last point (added to, then broadcast into the [8, 128] output blocks).
-/
import proofs.«111520_j128849019170_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.TripletPieces

open Cert.KernelIdeal Cert.KernelIdeal.Gen

variable {F : FTy → Type} [FloatOps F]

theorem hz : (![0, 0] : Fin 2 → Nat) = fun _ => 0 := funext fun a => by fin_cases a <;> rfl

theorem lo_inb : ∀ a, (![0, 0] : Fin 2 → Nat) a + (![512, 1024] : Fin 2 → Nat) a ≤ S1024x1024.size a :=
  Rect.inb₂ (by decide) (by decide)

theorem hi_inb : ∀ a, (![512, 0] : Fin 2 → Nat) a + (![512, 1024] : Fin 2 → Nat) a ≤ S1024x1024.size a :=
  Rect.inb₂ (by decide) (by decide)

/-- Rows 0 … 511 of a tile. -/
def lo (x : Vec F S1024x1024 .f32) : Vec F S512x1024 .f32 :=
  View.ld x (Rect.unit (s := S1024x1024) ![0, 0] ![512, 1024] lo_inb)

/-- Rows 512 … 1023 of a tile. -/
def hi (x : Vec F S1024x1024 .f32) : Vec F S512x1024 .f32 :=
  View.ld x (Rect.unit (s := S1024x1024) ![512, 0] ![512, 1024] hi_inb)

/-- The loss accumulator after a point whose tiles are `x0`, `x1`, `x2`, from what it held. -/
def stepLoss (x0 x1 x2 : Vec F S1024x1024 .f32) (old : Vec F S1x1 .f32) : Vec F S1x1 .f32 :=
  k0_pay11 (k0_pay7 (lo x0) (lo x1) (lo x2)) (hi x0) (hi x1) (hi x2) old

/-- The accuracy accumulator after the point, from what it held. -/
def stepHit (x0 x1 x2 : Vec F S1024x1024 .f32) (old : Vec F S1x1 .f32) : Vec F S1x1 .f32 :=
  k0_pay12 (k0_pay8 (lo x0) (lo x1) (lo x2)) (hi x0) (hi x1) (hi x2) old

/-! ## A core's first point: reset, then add -/

theorem first_loss (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S1x1 .f32) (harg7 : arg7.IsWhole) (arg8 : Memref sig .tc .vmem S1x1 .f32) (harg8 : arg8.IsWhole) (hc0 : cond0_0 i) (hc1 : ¬cond0_1 i) (x0 x1 x2 : Vec F S1024x1024 .f32) :
    sout0_A_0 c i arg2 harg2 arg3 harg3 arg4 harg4 arg5 harg5 arg6 harg6 arg7 harg7 arg8 harg8 hc0 hc1 x0 x1 x2 = stepLoss x0 x1 x2 k0_pay3 := by
  unfold sout0_A_0
  rw [View.read_writes_eq_canon _ _ _ (scover0_A_0 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S1x1) hz]
  simp only [View.readAt_eq_ld, harg2.read_unread, harg3.read_unread, harg4.read_unread, harg7.read_unread, harg8.read_unread, View.ld_unit_zero (S := S1x1) hz, View.readCov_unit_zero (S := S1x1) _ hz]
  rfl

theorem first_hit (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S1x1 .f32) (harg7 : arg7.IsWhole) (arg8 : Memref sig .tc .vmem S1x1 .f32) (harg8 : arg8.IsWhole) (hc0 : cond0_0 i) (hc1 : ¬cond0_1 i) (x0 x1 x2 : Vec F S1024x1024 .f32) :
    sout0_A_1 c i arg2 harg2 arg3 harg3 arg4 harg4 arg5 harg5 arg6 harg6 arg7 harg7 arg8 harg8 hc0 hc1 x0 x1 x2 = stepHit x0 x1 x2 k0_pay4 := by
  unfold sout0_A_1
  rw [View.read_writes_eq_canon _ _ _ (scover0_A_1 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S1x1) hz]
  simp only [View.readAt_eq_ld, harg2.read_unread, harg3.read_unread, harg4.read_unread, harg7.read_unread, harg8.read_unread, View.ld_unit_zero (S := S1x1) hz, View.readCov_unit_zero (S := S1x1) _ hz]
  rfl

/-! ## A middle point: add -/

theorem middle_loss (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : ¬cond0_1 i) (x0 x1 x2 : Vec F S1024x1024 .f32) (xs0 xs1 : Vec F S1x1 .f32) :
    sout0_B_0 c i arg2 harg2 arg3 harg3 arg4 harg4 arg5 harg5 arg6 harg6 arg7 harg7 arg8 harg8 hc0 hc1 x0 x1 x2 xs0 xs1 = stepLoss x0 x1 x2 xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 xs0 xs1)]
  unfold kernelRun0_B
  dsimp only
  sl_unfold_words
  rw [View.canon_unit_zero (S := S1x1) hz]
  simp only [View.readAt_eq_ld, harg2.read_unread, harg3.read_unread, harg4.read_unread, harg7.read_unread, harg8.read_unread, View.ld_unit_zero (S := S1x1) hz, View.readCov_unit_zero (S := S1x1) _ hz]
  rfl

theorem middle_hit (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : ¬cond0_1 i) (x0 x1 x2 : Vec F S1024x1024 .f32) (xs0 xs1 : Vec F S1x1 .f32) :
    sout0_B_1 c i arg2 harg2 arg3 harg3 arg4 harg4 arg5 harg5 arg6 harg6 arg7 harg7 arg8 harg8 hc0 hc1 x0 x1 x2 xs0 xs1 = stepHit x0 x1 x2 xs1 := by
  unfold sout0_B_1
  rw [View.read_writes_eq_canon _ _ _ (scover0_B_1 c i arg2 harg2 arg3 harg3 arg4 harg4 arg5 harg5 arg6 harg6 arg7 harg7 arg8 harg8 hc0 hc1 x0 x1 x2 xs0 xs1)]
  unfold kernelRun0_B
  dsimp only
  sl_unfold_words
  rw [View.canon_unit_zero (S := S1x1) hz]
  simp only [View.readAt_eq_ld, harg2.read_unread, harg3.read_unread, harg4.read_unread, harg7.read_unread, harg8.read_unread, View.ld_unit_zero (S := S1x1) hz, View.readCov_unit_zero (S := S1x1) _ hz]
  rfl

/-! ## A core's last point: add, then broadcast into the output blocks -/

theorem last_loss (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i) (x0 x1 x2 : Vec F S1024x1024 .f32) (xs0 xs1 : Vec F S1x1 .f32) :
    sout0_C_0 c i arg2 harg2 arg3 harg3 arg4 harg4 arg5 harg5 arg6 harg6 arg7 harg7 arg8 harg8 hc0 hc1 x0 x1 x2 xs0 xs1 = stepLoss x0 x1 x2 xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 xs0 xs1)]
  unfold kernelRun0_C
  dsimp only
  sl_unfold_words
  rw [View.canon_unit_zero (S := S1x1) hz]
  simp only [View.readAt_eq_ld, harg2.read_unread, harg3.read_unread, harg4.read_unread, harg7.read_unread, harg8.read_unread, View.ld_unit_zero (S := S1x1) hz, View.readCov_unit_zero (S := S1x1) _ hz]
  rfl

theorem last_hit (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i) (x0 x1 x2 : Vec F S1024x1024 .f32) (xs0 xs1 : Vec F S1x1 .f32) :
    sout0_C_1 c i arg2 harg2 arg3 harg3 arg4 harg4 arg5 harg5 arg6 harg6 arg7 harg7 arg8 harg8 hc0 hc1 x0 x1 x2 xs0 xs1 = stepHit x0 x1 x2 xs1 := by
  unfold sout0_C_1
  rw [View.read_writes_eq_canon _ _ _ (scover0_C_1 c i arg2 harg2 arg3 harg3 arg4 harg4 arg5 harg5 arg6 harg6 arg7 harg7 arg8 harg8 hc0 hc1 x0 x1 x2 xs0 xs1)]
  unfold kernelRun0_C
  dsimp only
  sl_unfold_words
  rw [View.canon_unit_zero (S := S1x1) hz]
  simp only [View.readAt_eq_ld, harg2.read_unread, harg3.read_unread, harg4.read_unread, harg7.read_unread, harg8.read_unread, View.ld_unit_zero (S := S1x1) hz, View.readCov_unit_zero (S := S1x1) _ hz]
  rfl

theorem out_loss (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i) (x0 x1 x2 : Vec F S1024x1024 .f32) (xs0 xs1 : Vec F S1x1 .f32) :
    out0_C_3 c i arg2 harg2 arg3 harg3 arg4 harg4 arg5 harg5 arg6 harg6 arg7 harg7 arg8 harg8 hc0 hc1 x0 x1 x2 xs0 xs1 = k0_pay1 (stepLoss x0 x1 x2 xs0) := by
  unfold out0_C_3
  rw [View.read_writes_eq_canon _ _ _ (cover0_C_3 c i arg2 harg2 arg3 harg3 arg4 harg4 arg5 harg5 arg6 harg6 arg7 harg7 arg8 harg8 hc0 hc1 x0 x1 x2 xs0 xs1)]
  unfold kernelRun0_C
  dsimp only
  sl_unfold_words
  rw [View.canon_unit_zero (S := S8x128) hz]
  simp only [View.readAt_eq_ld, harg2.read_unread, harg3.read_unread, harg4.read_unread, harg7.read_unread, harg8.read_unread, View.ld_unit_zero (S := S1x1) hz, View.readCov_unit_zero (S := S1x1) _ hz]
  rfl

theorem out_hit (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i) (x0 x1 x2 : Vec F S1024x1024 .f32) (xs0 xs1 : Vec F S1x1 .f32) :
    out0_C_4 c i arg2 harg2 arg3 harg3 arg4 harg4 arg5 harg5 arg6 harg6 arg7 harg7 arg8 harg8 hc0 hc1 x0 x1 x2 xs0 xs1 = k0_pay2 (stepHit x0 x1 x2 xs1) := by
  unfold out0_C_4
  rw [View.read_writes_eq_canon _ _ _ (cover0_C_4 c i arg2 harg2 arg3 harg3 arg4 harg4 arg5 harg5 arg6 harg6 arg7 harg7 arg8 harg8 hc0 hc1 x0 x1 x2 xs0 xs1)]
  unfold kernelRun0_C
  dsimp only
  sl_unfold_words
  rw [View.canon_unit_zero (S := S8x128) hz]
  simp only [View.readAt_eq_ld, harg2.read_unread, harg3.read_unread, harg4.read_unread, harg7.read_unread, harg8.read_unread, View.ld_unit_zero (S := S1x1) hz, View.readCov_unit_zero (S := S1x1) _ hz]
  rfl

end Cert.TripletPieces

end
-- ==== Proof.LibColumnLayout.lean ====
/-
  Column layouts and row reductions read at an index.

  A reduction along the last axis with `keepdims` leaves a column: the reduced vector `[a]` is cast to `[a, 1]` and
  broadcast back to `[a, b]`, so entry `(p, c)` of the broadcast is entry `p` of the reduced vector. The reductions
  themselves, over the last axis of a rank-2 array and read at row `p`, are the sum (resp. the fold of `max`) over that
  row's entries. Stated over literal-size constructors (`ix1`, `ix2`) so that they fire on indices built by coordinates.
-/
import Idealize.ShloMosaic.Lib.ValueIdx
import Idealize.ShloMosaic.Lib.ValueLayout
import Idealize.ShloMosaic.Lib.Pipeline.Value
import Idealize.ShloMosaic.PureOps.Ideal.Laws

noncomputable section

namespace Idealize.ShloMosaic.ColumnLayout

open Idealize.ShloMosaic Idealize.ShloMosaic.ValueIdx

variable {α : Type}

/-- An `[a]` array cast to the column `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b]` array cast to `[1, 1, a, b]` reads, at `(u, v, i, j)`, the operand at `(i, j)`, whatever the unit coordinates. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_two, Shape.rowMajor_val_four]
    show i.val * b + j.val = ((u.val * 1 + v.val) * a + i.val) * b + j.val
    simp only [hu, hv, Nat.zero_mul, Nat.zero_add])

/-- The two together: a reduced vector kept as a column and broadcast back along the rows. -/
theorem keepdims_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) :=
  (broadcastTo_a1_ab_apply _ h' p c).trans (shapeCast_a_a1_apply x h p 0)

/-- A float sum over the last axis of an `[a, b]` array from the zero word, read at row `p` at the extended reals: the sum
    of the row's entries. -/
theorem rowSum_apply {a b : ℕ} (src : FVec Ideal ⟨2, ![a, b]⟩ .f32) (h : (⟨2, ![a, b]⟩ : Shape).Reduces [1] ⟨1, ![a]⟩)
    (hφ : FKind.Formats FTy.f32) (hacc : (0x00000000#32 : BitVec FTy.f32.bits) = FKind.add.neutral .f32 hφ) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src (funext fun ax => Fin.ext ?_)
  match ax with
  | ⟨0, _⟩ => rfl
  | ⟨1, _⟩ => rfl

/-- The binary32 word of `−∞` is the least extended real. -/
theorem ofBits_neg_inf_f32 : Ideal.ofBits .f32 0xFF800000#32 = ⊥ := by simp [Ideal.ofBits, Ideal.ieee]

/-- A float maximum over the last axis of an `[a, b]` array from the `−∞` word, read at row `p` at the extended reals: the
    fold of `max` over the row's entries from `⊥`. -/
theorem rowMax_apply {a b : ℕ} (src : FVec Ideal ⟨2, ![a, b]⟩ .f32) (h : (⟨2, ![a, b]⟩ : Shape).Reduces [1] ⟨1, ![a]⟩)
    (hφ : FKind.Formats FTy.f32) (hacc : (0xFF800000#32 : BitVec FTy.f32.bits) = FKind.maximumf.neutral .f32 hφ) (p : Fin a) :
    multiReduction .maximumf [1] ⟨1, ![a]⟩ src 0xFF800000#32 h hφ hacc (ix1 p)
      = (Finset.univ : Finset (Fin b)).fold max ⊥ (fun k => src (ix2 p k)) := by
  refine (Ideal.multiReduction_maximumf_single src 0xFF800000#32 h hφ hacc (ix1 p)).trans ?_
  show (Finset.univ : Finset (Fin b)).fold max (Ideal.ofBits .f32 0xFF800000#32) (src ∘ h.lift (ix1 p)) = _
  rw [ofBits_neg_inf_f32]
  refine congrArg (Finset.fold max ⊥ · Finset.univ) (funext fun k => congrArg src (funext fun ax => Fin.ext ?_))
  match ax with
  | ⟨0, _⟩ => rfl
  | ⟨1, _⟩ => rfl

/-- A row softmax read at an entry. The printed form: the row maximum (a float `max` reduction from `−∞`) kept as a
    column, subtracted, exponentiated; the row sum of the exponentials (a float `add` reduction from zero) kept as a column;
    the quotient. At `(m, n)`, over the extended reals, it is `exp (s[m, n] − max_n' s[m, n'])` over the sum of the same
    expression along row `m`. -/
theorem rowSoftmax_apply {a b : ℕ} (s : FVec Ideal ⟨2, ![a, b]⟩ .f32)
    (h : (⟨2, ![a, b]⟩ : Shape).Reduces [1] ⟨1, ![a]⟩) (hφ hφ' : FKind.Formats FTy.f32)
    (hmax : (0xFF800000#32 : BitVec FTy.f32.bits) = FKind.maximumf.neutral .f32 hφ)
    (hadd : (0x00000000#32 : BitVec FTy.f32.bits) = FKind.add.neutral .f32 hφ')
    (hc : (⟨1, ![a]⟩ : Shape).ShapeCasts ⟨2, ![a, 1]⟩) (hb : (⟨2, ![a, 1]⟩ : Shape).Broadcasts ⟨2, ![a, b]⟩)
    (m : Fin a) (n : Fin b) :
    divf
        (exp (subf s (broadcastTo ⟨2, ![a, b]⟩
          (shapeCast ⟨2, ![a, 1]⟩ (multiReduction .maximumf [1] ⟨1, ![a]⟩ s 0xFF800000#32 h hφ hmax) hc) hb)))
        (broadcastTo ⟨2, ![a, b]⟩
          (shapeCast ⟨2, ![a, 1]⟩
            (multiReduction .add [1] ⟨1, ![a]⟩
              (exp (subf s (broadcastTo ⟨2, ![a, b]⟩
                (shapeCast ⟨2, ![a, 1]⟩ (multiReduction .maximumf [1] ⟨1, ![a]⟩ s 0xFF800000#32 h hφ hmax) hc) hb)))
              0x00000000#32 h hφ' hadd) hc) hb)
        (ix2 m n)
      = Ideal.div (Ideal.exp (s (ix2 m n) - (Finset.univ : Finset (Fin b)).fold max ⊥ (fun n' => s (ix2 m n'))))
          (∑ n' : Fin b, Ideal.exp (s (ix2 m n') - (Finset.univ : Finset (Fin b)).fold max ⊥ (fun n'' => s (ix2 m n'')))) := by
  have hnum : ∀ n' : Fin b,
      exp (subf s (broadcastTo ⟨2, ![a, b]⟩
          (shapeCast ⟨2, ![a, 1]⟩ (multiReduction .maximumf [1] ⟨1, ![a]⟩ s 0xFF800000#32 h hφ hmax) hc) hb)) (ix2 m n')
        = Ideal.exp (s (ix2 m n') - (Finset.univ : Finset (Fin b)).fold max ⊥ (fun n'' => s (ix2 m n''))) := by
    intro n'
    show Ideal.exp (s (ix2 m n') - broadcastTo ⟨2, ![a, b]⟩
          (shapeCast ⟨2, ![a, 1]⟩ (multiReduction .maximumf [1] ⟨1, ![a]⟩ s 0xFF800000#32 h hφ hmax) hc) hb (ix2 m n')) = _
    rw [keepdims_apply, rowMax_apply]
  rw [divf_apply, hnum n, keepdims_apply, rowSum_apply]
  exact congrArg (Ideal.div _) (Finset.sum_congr rfl fun n' _ => hnum n')

end Idealize.ShloMosaic.ColumnLayout

end
-- ==== Proof.LibRowLayout.lean ====
/-
  Row layouts and column reductions read at an index.

  A reduction along the FIRST axis of a rank-2 array with `keepdims` leaves a row: the reduced vector `[b]` is cast to
  `[1, b]` and broadcast back to `[a, b]`, so entry `(p, c)` of the broadcast is entry `c` of the reduced vector. The
  reduction itself, over the first axis of an `[a, b]` array and read at column `q`, is the sum over that column's
  entries. Stated over literal-size constructors (`ix1`, `ix2`) so that they fire on indices built by coordinates.
-/
import Idealize.ShloMosaic.Lib.ValueIdx
import Idealize.ShloMosaic.Lib.ValueLayout
import Idealize.ShloMosaic.Lib.Pipeline.Value
import Idealize.ShloMosaic.PureOps.Ideal.Laws

noncomputable section

namespace Idealize.ShloMosaic.RowLayout

open Idealize.ShloMosaic Idealize.ShloMosaic.ValueIdx

variable {α : Type}

/-- A reduced vector `[b]` kept as the row `[1, b]` and broadcast back along the columns reads, at `(p, c)`, the
    vector's entry `c`, whatever the row `p`. -/
theorem keepdimsRow_apply {a b : ℕ} (x : (⟨1, ![b]⟩ : Shape).Idx → α) (h : (⟨1, ![b]⟩ : Shape).ShapeCasts ⟨2, ![1, b]⟩)
    (h' : (⟨2, ![1, b]⟩ : Shape).Broadcasts ⟨2, ![a, b]⟩) (p : Fin a) (c : Fin b) :
    broadcastTo ⟨2, ![a, b]⟩ (shapeCast ⟨2, ![1, b]⟩ x h) h' (ix2 p c) = x (ix1 c) :=
  (broadcastTo_1b_ab_apply _ h' p c).trans (shapeCast_a_1a_apply x h 0 c)

/-- A float sum over the first axis of an `[a, b]` array from the zero word, read at column `q` at the extended reals: the
    sum of the column's entries. -/
theorem colSum_apply {a b : ℕ} (src : FVec Ideal ⟨2, ![a, b]⟩ .f32) (h : (⟨2, ![a, b]⟩ : Shape).Reduces [0] ⟨1, ![b]⟩)
    (hφ : FKind.Formats FTy.f32) (hacc : (0x00000000#32 : BitVec FTy.f32.bits) = FKind.add.neutral .f32 hφ) (q : Fin b) :
    multiReduction .add [0] ⟨1, ![b]⟩ src 0x00000000#32 h hφ hacc (ix1 q) = ∑ k : Fin a, src (ix2 k q) := by
  refine (Ideal.multiReduction_add_single src 0x00000000#32 h hφ hacc (ix1 q)).trans ?_
  refine Finset.sum_congr rfl fun k _ => congrArg src (funext fun ax => Fin.ext ?_)
  match ax with
  | ⟨0, _⟩ => rfl
  | ⟨1, _⟩ => rfl

end Idealize.ShloMosaic.RowLayout

end
-- ==== Proof.TripletPayload.lean ====
/-
  The body's arithmetic read at an entry, over the extended reals.

  One grid point handles a [1024, 1024] tile of each array in two halves of 512 rows. For a half (blocks `A`, `P`, `N`
  of the three arrays) the body forms each row's two squared distances, kept as a [512, 1] column, the hinge column
  `max (d(A,P) − d(A,N) + margin) 0` and the comparison column `d(A,P) > d(A,N)` as 0/1, and sums each column to a
  [1, 1] value. The first half starts both running sums from zero, the second adds to them, and the total is added to
  the accumulator held between grid points.
-/
import proofs.«111520_j128849019170_2_alg».proof.Proof.Gen.KernelIdeal.Skeleton
import proofs.«111520_j128849019170_2_alg».proof.Proof.TripletSpec
import proofs.«111520_j128849019170_2_alg».proof.Proof.LibColumnLayout
import proofs.«111520_j128849019170_2_alg».proof.Proof.LibRowLayout
import Idealize.ShloMosaic.Lib.ValueIdx
import Idealize.ShloMosaic.Lib.Pipeline.Value
import Idealize.ShloMosaic.PureOps.Ideal.Laws

noncomputable section

namespace Cert.TripletPayload

open Idealize.ShloMosaic Idealize.ShloMosaic.ValueIdx Cert.KernelIdeal Cert.KernelIdeal.Gen
open scoped BigOperators

/-- A half tile: 512 rows of 1024 entries. -/
abbrev Half : Type := FVec Ideal S512x1024 .f32

/-- A [1, 1] value. -/
abbrev Cell : Type := FVec Ideal S1x1 .f32

/-- The squared distance between row `r` of two half tiles. -/
def dist (A B : Half) (r : Fin 512) : EReal :=
  ∑ k : Fin 1024, (A (ix2 r k) - B (ix2 r k)) * (A (ix2 r k) - B (ix2 r k))

/-- The hinge terms of a half tile's 512 rows, summed. -/
def lossHalf (A P N : Half) : EReal :=
  ∑ r : Fin 512, max (dist A P r - dist A N r + TripletSpec.margin) 0

/-- The accuracy terms of a half tile's 512 rows, summed. -/
def hitHalf (A P N : Half) : EReal :=
  ∑ r : Fin 512, (((BitVec.ofBool (decide (dist A N r < dist A P r))).toNat : ℝ) : EReal)

/-- A [1, 1] array has one index. -/
theorem cell_idx (i : S1x1.Idx) : i = ix2 (0 : Fin 1) (0 : Fin 1) := by
  funext a
  match a with
  | ⟨0, _⟩ => exact Fin.ext (by have := idx2_lt0 i; show (i 0).val = 0; omega)
  | ⟨1, _⟩ => exact Fin.ext (by have := idx2_lt1 i; show (i 1).val = 0; omega)

/-- The column of squared distances, at row `r`. -/
theorem dist_column (A B : Half) (r : Fin 512) (u : Fin 1) : k0_pay5 (F := Ideal) A B (ix2 r u) = dist A B r := by
  unfold k0_pay5
  refine (ColumnLayout.shapeCast_a_a1_apply _ _ r u).trans ?_
  exact ColumnLayout.rowSum_apply _ _ _ _ r

/-- The four printed copies of that column are one function. -/
theorem pay6_eq : @k0_pay6 Ideal _ = @k0_pay5 Ideal _ := rfl
theorem pay9_eq : @k0_pay9 Ideal _ = @k0_pay5 Ideal _ := rfl
theorem pay10_eq : @k0_pay10 Ideal _ = @k0_pay5 Ideal _ := rfl

/-- The first half's hinge sum, started from zero. -/
theorem loss_first (A P N : Half) (i : S1x1.Idx) : k0_pay7 (F := Ideal) A P N i = lossHalf A P N := by
  rw [cell_idx i]
  unfold k0_pay7
  refine (congrArg₂ (· + ·) Ideal.ofBits_zero_f32 (ColumnLayout.shapeCast_a_a1_apply _ _ (0 : Fin 1) (0 : Fin 1))).trans ?_
  rw [zero_add]
  refine (RowLayout.colSum_apply _ _ _ _ (0 : Fin 1)).trans ?_
  refine Finset.sum_congr rfl fun r _ => ?_
  refine (congrArg₂ max (congrArg₂ (· + ·) (congrArg₂ (· - ·) (dist_column A P r 0) ((congrFun (congrFun (congrFun pay6_eq A) N) _).trans (dist_column A N r 0))) rfl) Ideal.ofBits_zero_f32).trans ?_
  rfl

/-- The first half's accuracy sum, started from zero. -/
theorem hit_first (A P N : Half) (i : S1x1.Idx) : k0_pay8 (F := Ideal) A P N i = hitHalf A P N := by
  rw [cell_idx i]
  unfold k0_pay8
  refine (congrArg₂ (· + ·) Ideal.ofBits_zero_f32 (ColumnLayout.shapeCast_a_a1_apply _ _ (0 : Fin 1) (0 : Fin 1))).trans ?_
  rw [zero_add]
  refine (RowLayout.colSum_apply _ _ _ _ (0 : Fin 1)).trans ?_
  refine Finset.sum_congr rfl fun r _ => ?_
  show ((((Ideal.cmp .ogt (k0_pay5 (F := Ideal) A P (ix2 r 0)) (k0_pay6 (F := Ideal) A N (ix2 r 0))).setWidth 32).toInt : ℝ) : EReal) = _
  rw [dist_column, congrFun (congrFun (congrFun pay6_eq A) N) _, dist_column]
  exact TripletSpec.bit_signed_eq_unsigned _

/-- The accumulator after a grid point: what it held, plus the first half's sum, plus the second half's. -/
theorem loss_acc (s : Cell) (A P N : Half) (old : Cell) (i : S1x1.Idx) :
    k0_pay11 (F := Ideal) s A P N old i = old i + (s i + lossHalf A P N) := by
  unfold k0_pay11
  rw [shapeCast_self]
  refine congrArg (old i + ·) (congrArg (s i + ·) ?_)
  rw [cell_idx i]
  refine (ColumnLayout.shapeCast_a_a1_apply _ _ (0 : Fin 1) (0 : Fin 1)).trans ?_
  refine (RowLayout.colSum_apply _ _ _ _ (0 : Fin 1)).trans ?_
  refine Finset.sum_congr rfl fun r _ => ?_
  refine (congrArg₂ max (congrArg₂ (· + ·) (congrArg₂ (· - ·) ((congrFun (congrFun (congrFun pay9_eq A) P) _).trans (dist_column A P r 0)) ((congrFun (congrFun (congrFun pay10_eq A) N) _).trans (dist_column A N r 0))) rfl) Ideal.ofBits_zero_f32).trans ?_
  rfl

/-- The same for the accuracy accumulator. -/
theorem hit_acc (s : Cell) (A P N : Half) (old : Cell) (i : S1x1.Idx) :
    k0_pay12 (F := Ideal) s A P N old i = old i + (s i + hitHalf A P N) := by
  unfold k0_pay12
  rw [shapeCast_self]
  refine congrArg (old i + ·) (congrArg (s i + ·) ?_)
  rw [cell_idx i]
  refine (ColumnLayout.shapeCast_a_a1_apply _ _ (0 : Fin 1) (0 : Fin 1)).trans ?_
  refine (RowLayout.colSum_apply _ _ _ _ (0 : Fin 1)).trans ?_
  refine Finset.sum_congr rfl fun r _ => ?_
  show ((((Ideal.cmp .ogt (k0_pay9 (F := Ideal) A P (ix2 r 0)) (k0_pay10 (F := Ideal) A N (ix2 r 0))).setWidth 32).toInt : ℝ) : EReal) = _
  rw [congrFun (congrFun (congrFun pay9_eq A) P) _, dist_column, congrFun (congrFun (congrFun pay10_eq A) N) _, dist_column]
  exact TripletSpec.bit_signed_eq_unsigned _

/-- The reset stores the zero. -/
theorem reset_loss (i : S1x1.Idx) : k0_pay3 (F := Ideal) i = 0 := by
  unfold k0_pay3
  rw [shapeCast_self]
  exact Ideal.ofBits_zero_f32

theorem reset_hit (i : S1x1.Idx) : k0_pay4 (F := Ideal) i = 0 := by
  unfold k0_pay4
  rw [shapeCast_self]
  exact Ideal.ofBits_zero_f32

/-- The flush broadcasts the accumulator over the [8, 128] output block. -/
theorem flush_loss (v : Cell) (a : Fin 8) (b : Fin 128) : k0_pay1 (F := Ideal) v (ix2 a b) = v (ix2 0 0) := by
  unfold k0_pay1
  rw [shapeCast_self]
  refine broadcastTo_apply v _ (ix2 a b) (ix2 (0 : Fin 1) (0 : Fin 1)) fun ax => ?_
  match ax with
  | ⟨0, _⟩ => rfl
  | ⟨1, _⟩ => rfl

theorem flush_hit (v : Cell) (a : Fin 8) (b : Fin 128) : k0_pay2 (F := Ideal) v (ix2 a b) = v (ix2 0 0) := by
  unfold k0_pay2
  rw [shapeCast_self]
  refine broadcastTo_apply v _ (ix2 a b) (ix2 (0 : Fin 1) (0 : Fin 1)) fun ax => ?_
  match ax with
  | ⟨0, _⟩ => rfl
  | ⟨1, _⟩ => rfl

end Cert.TripletPayload

end
-- ==== Proof.TripletBlocks.lean ====
/-
  A grid point's tiles are rows of the argument arrays, and what the point adds to the two accumulators is the sum of
  the row terms of its 1024 rows.

  Grid point `t` (of 16: core `t / 8`, step `t % 8`) stages rows `1024·t … 1024·t + 1023` of each array. Read at an
  entry, the squared distances of a half tile's rows are those of the arrays' rows, so the half's hinge sum is the sum of
  `lossRow` over its 512 rows, and the point adds `pointSum` of the row term to each accumulator.
-/
import proofs.«111520_j128849019170_2_alg».proof.Proof.Gen.KernelIdeal.Frame
import proofs.«111520_j128849019170_2_alg».proof.Proof.TripletSpec
import proofs.«111520_j128849019170_2_alg».proof.Proof.TripletPieces
import proofs.«111520_j128849019170_2_alg».proof.Proof.TripletPayload
import Idealize.ShloMosaic.Lib.ValueIdx
import Idealize.ShloMosaic.Lib.Pipeline.Value

noncomputable section

open Idealize.ShloMosaic Idealize.ShloMosaic.TcCoe Idealize.SL.Sem Idealize.ShloMosaic.ValueIdx

namespace Cert.TripletBlocks

open Cert.KernelIdeal Cert.KernelIdeal.Gen Cert.TripletSpec Cert.TripletPieces Cert.TripletPayload
open scoped BigOperators

/-! ## The two halves of a tile, read at an entry -/

theorem lo_apply (x : Vec Ideal S1024x1024 .f32) (r : Fin 512) (k : Fin 1024) :
    lo x (ix2 r k) = x (ix2 (⟨r.val, by have := r.isLt; omega⟩ : Fin 1024) k) := by
  show x ((Rect.unit (s := S1024x1024) ![0, 0] ![512, 1024] lo_inb).emb (ix2 r k)) = _
  refine congrArg x (funext fun a => Fin.ext ?_)
  match a with
  | ⟨0, _⟩ => show 0 + 1 * r.val = r.val; omega
  | ⟨1, _⟩ => show 0 + 1 * k.val = k.val; omega

theorem hi_apply (x : Vec Ideal S1024x1024 .f32) (r : Fin 512) (k : Fin 1024) :
    hi x (ix2 r k) = x (ix2 (⟨512 + r.val, by have := r.isLt; omega⟩ : Fin 1024) k) := by
  show x ((Rect.unit (s := S1024x1024) ![512, 0] ![512, 1024] hi_inb).emb (ix2 r k)) = _
  refine congrArg x (funext fun a => Fin.ext ?_)
  match a with
  | ⟨0, _⟩ => show 512 + 1 * r.val = 512 + r.val; omega
  | ⟨1, _⟩ => show 0 + 1 * k.val = k.val; omega

/-! ## A tile whose rows are rows `1024·t + r` of an array -/

/-- Tile `X` is rows `1024·t … 1024·t + 1023` of the array `a`. -/
def IsTile (X : Vec Ideal S1024x1024 .f32) (a : Arr) (t : ℕ) : Prop :=
  ∀ (r k : Fin 1024) (h : 1024 * t + r.val < 16384), X (ix2 r k) = a (ix2 ⟨1024 * t + r.val, h⟩ k)

theorem dist_lo {X Y : Vec Ideal S1024x1024 .f32} {a b : Arr} {t : ℕ} (hX : IsTile X a t) (hY : IsTile Y b t)
    (r : Fin 512) (h : 1024 * t + r.val < 16384) : dist (lo X) (lo Y) r = sqd a b ⟨1024 * t + r.val, h⟩ := by
  unfold TripletPayload.dist sqd
  refine Finset.sum_congr rfl fun k _ => ?_
  rw [lo_apply, lo_apply, hX _ k h, hY _ k h]

theorem dist_hi {X Y : Vec Ideal S1024x1024 .f32} {a b : Arr} {t : ℕ} (hX : IsTile X a t) (hY : IsTile Y b t)
    (r : Fin 512) (h : 1024 * t + 512 + r.val < 16384) : dist (hi X) (hi Y) r = sqd a b ⟨1024 * t + 512 + r.val, h⟩ := by
  unfold TripletPayload.dist sqd
  have h' : 1024 * t + (512 + r.val) < 16384 := by omega
  have e : (⟨1024 * t + 512 + r.val, h⟩ : Fin 16384) = ⟨1024 * t + (512 + r.val), h'⟩ := Fin.ext (Nat.add_assoc _ _ _)
  rw [e]
  refine Finset.sum_congr rfl fun k _ => ?_
  rw [hi_apply, hi_apply, hX _ k h', hY _ k h']

/-- What a point adds to the loss accumulator. -/
theorem stepLoss_apply {X0 X1 X2 : Vec Ideal S1024x1024 .f32} {a p n : Arr} {t : ℕ} (ht : t < 16)
    (h0 : IsTile X0 a t) (h1 : IsTile X1 p t) (h2 : IsTile X2 n t) (old : Cell) (i : S1x1.Idx) :
    stepLoss X0 X1 X2 old i = old i + pointSum (lossRow a p n) t := by
  unfold stepLoss
  rw [loss_acc, loss_first]
  refine congrArg (old i + ·) ?_
  unfold pointSum lossHalf
  refine congrArg₂ (· + ·) (Finset.sum_congr rfl fun r _ => ?_) (Finset.sum_congr rfl fun r _ => ?_)
  · have h : 1024 * t + r.val < 16384 := by have := r.isLt; omega
    rw [dist_lo h0 h1 r h, dist_lo h0 h2 r h]
    unfold tot; rw [dif_pos h]; rfl
  · have h : 1024 * t + 512 + r.val < 16384 := by have := r.isLt; omega
    rw [dist_hi h0 h1 r h, dist_hi h0 h2 r h]
    unfold tot; rw [dif_pos h]; rfl

/-- What a point adds to the accuracy accumulator. -/
theorem stepHit_apply {X0 X1 X2 : Vec Ideal S1024x1024 .f32} {a p n : Arr} {t : ℕ} (ht : t < 16)
    (h0 : IsTile X0 a t) (h1 : IsTile X1 p t) (h2 : IsTile X2 n t) (old : Cell) (i : S1x1.Idx) :
    stepHit X0 X1 X2 old i = old i + pointSum (hitRow a p n) t := by
  unfold stepHit
  rw [hit_acc, hit_first]
  refine congrArg (old i + ·) ?_
  unfold pointSum hitHalf
  refine congrArg₂ (· + ·) (Finset.sum_congr rfl fun r _ => ?_) (Finset.sum_congr rfl fun r _ => ?_)
  · have h : 1024 * t + r.val < 16384 := by have := r.isLt; omega
    rw [dist_lo h0 h1 r h, dist_lo h0 h2 r h]
    unfold tot; rw [dif_pos h]; rfl
  · have h : 1024 * t + 512 + r.val < 16384 := by have := r.isLt; omega
    rw [dist_hi h0 h1 r h, dist_hi h0 h2 r h]
    unfold tot; rw [dif_pos h]; rfl

/-! ## The staged tiles are such tiles -/

variable (m : (ℓ : Loc nD τ sig) → Buf (Elt Ideal) ℓ)

/-- The input windows' index maps over the grid: block row `t`, block column 0. -/
theorem idx_in : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0) :=
  (by decide +kernel : ∀ t : Fin grid0.N, _)

theorem tile0 (c : Dev nD) (t : Fin cfg0.N) :
    IsTile (iblk m c 0 t) (m ((c : Thread nD τ).loc main_arg0)) t.val := by
  intro r k h
  have hi := (idx_in t).1
  unfold iblk
  rw [View.read_apply]
  show V m c main_arg0 _ = m ((c : Thread nD τ).loc main_arg0) _
  rw [V_main_arg0]
  refine congrArg _ (funext fun a => Fin.ext ?_)
  match a with
  | ⟨0, _⟩ => show win0_0.index t 0 * 1024 + 1 * r.val = 1024 * t.val + r.val; rw [hi.1]; omega
  | ⟨1, _⟩ => show win0_0.index t 1 * 1024 + 1 * k.val = k.val; rw [hi.2]; omega

theorem tile1 (c : Dev nD) (t : Fin cfg0.N) :
    IsTile (iblk m c 1 t) (m ((c : Thread nD τ).loc main_arg1)) t.val := by
  intro r k h
  have hi := (idx_in t).2.1
  unfold iblk
  rw [View.read_apply]
  show V m c main_arg1 _ = m ((c : Thread nD τ).loc main_arg1) _
  rw [V_main_arg1]
  refine congrArg _ (funext fun a => Fin.ext ?_)
  match a with
  | ⟨0, _⟩ => show win0_1.index t 0 * 1024 + 1 * r.val = 1024 * t.val + r.val; rw [hi.1]; omega
  | ⟨1, _⟩ => show win0_1.index t 1 * 1024 + 1 * k.val = k.val; rw [hi.2]; omega

theorem tile2 (c : Dev nD) (t : Fin cfg0.N) :
    IsTile (iblk m c 2 t) (m ((c : Thread nD τ).loc main_arg2)) t.val := by
  intro r k h
  have hi := (idx_in t).2.2
  unfold iblk
  rw [View.read_apply]
  show V m c main_arg2 _ = m ((c : Thread nD τ).loc main_arg2) _
  rw [V_main_arg2]
  refine congrArg _ (funext fun a => Fin.ext ?_)
  match a with
  | ⟨0, _⟩ => show win0_2.index t 0 * 1024 + 1 * r.val = 1024 * t.val + r.val; rw [hi.1]; omega
  | ⟨1, _⟩ => show win0_2.index t 1 * 1024 + 1 * k.val = k.val; rw [hi.2]; omega

end Cert.TripletBlocks

end
-- ==== Proof.TripletArrays.lean ====
/-
  The two accumulators point by point, and the two output arrays after the run.

  Within a core's 8 grid points the accumulators are reset at the first point and added to at every point, so after point
  `n` they hold the contributions of points `n − n % 8 … n`; at the core's last point that is the core's whole sum
  (`coreSum`), which the point broadcasts into the [8, 128] block (0, core) of each [8, 256] output. The two blocks tile
  the array, so after the run column `j` of each output holds the sum of core `j / 128`.
-/
import proofs.«111520_j128849019170_2_alg».proof.Proof.Gen.KernelIdeal.Frame
import proofs.«111520_j128849019170_2_alg».proof.Proof.TripletSpec
import proofs.«111520_j128849019170_2_alg».proof.Proof.TripletPieces
import proofs.«111520_j128849019170_2_alg».proof.Proof.TripletPayload
import proofs.«111520_j128849019170_2_alg».proof.Proof.TripletBlocks
import Idealize.ShloMosaic.Lib.ValueIdx
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.TripletArrays

open Cert.KernelIdeal Cert.KernelIdeal.Gen Cert.TripletSpec Cert.TripletPieces Cert.TripletPayload Cert.TripletBlocks
open scoped BigOperators

variable (m : (ℓ : Loc nD τ sig) → Buf (Elt Ideal) ℓ)

/-- The three argument arrays on core `c`. -/
abbrev argA (c : Dev nD) : Arr := m ((c : Thread nD τ).loc main_arg0)
abbrev argP (c : Dev nD) : Arr := m ((c : Thread nD τ).loc main_arg1)
abbrev argN (c : Dev nD) : Arr := m ((c : Thread nD τ).loc main_arg2)

/-- The output windows' index maps over the grid: block row 0, block column the core. -/
theorem idx_out : ∀ t : Fin cfg0.N,
    (win0_3.index t (0 : Fin 2) = 0 ∧ win0_3.index t (1 : Fin 2) = t.val / 8)
    ∧ (win0_4.index t (0 : Fin 2) = 0 ∧ win0_4.index t (1 : Fin 2) = t.val / 8) :=
  (by decide +kernel : ∀ t : Fin grid0.N, _)

/-! ## The loss accumulator, point by point -/

theorem loss_first_point (c : Dev nD) (t : Fin cfg0.N) (h0 : t.val % 8 = 0) :
    (outsAt0 m c t.val t.isLt).2.2.1 = stepLoss (iblk m c 0 t) (iblk m c 1 t) (iblk m c 2 t) (k0_pay3 (F := Ideal)) := by
  have h1 : ¬t.val % 8 = 7 := by omega
  rw [outsAt0_A m c t h0 h1]
  exact first_loss (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t)

theorem loss_later_point (c : Dev nD) (t : Fin cfg0.N) (h0 : ¬t.val % 8 = 0) :
    (outsAt0 m c t.val t.isLt).2.2.1 = stepLoss (iblk m c 0 t) (iblk m c 1 t) (iblk m c 2 t) (outsAt0 m c (t.val - 1) (Nat.lt_of_le_of_lt (Nat.sub_le _ _) t.isLt)).2.2.1 := by
  by_cases h1 : t.val % 8 = 7
  · rw [outsAt0_C m c t h0 h1]
    exact last_loss (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2
  · rw [outsAt0_B m c t h0 h1]
    exact middle_loss (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2

/-- The loss accumulator's one entry after point `n` (zero past the grid). -/
def lossAt (c : Dev nD) (n : ℕ) : EReal :=
  if h : n < cfg0.N then (outsAt0 m c n h).2.2.1 (ix2 (0 : Fin 1) (0 : Fin 1)) else 0

theorem lossAt_first (c : Dev nD) (n : ℕ) (hn : n < 16) (h0 : n % 8 = 0) :
    lossAt m c n = pointSum (lossRow (argA m c) (argP m c) (argN m c)) n := by
  have h : n < cfg0.N := lt_of_lt_of_eq hn (show cfg0.N = 16 from N_0).symm
  unfold lossAt
  rw [dif_pos h]
  refine (congrFun (loss_first_point m c ⟨n, h⟩ h0) _).trans ?_
  refine (stepLoss_apply (t := n) hn (tile0 m c ⟨n, h⟩) (tile1 m c ⟨n, h⟩) (tile2 m c ⟨n, h⟩) _ _).trans ?_
  rw [reset_loss, zero_add]

theorem lossAt_later (c : Dev nD) (n : ℕ) (hn : n + 1 < 16) (h0 : ¬(n + 1) % 8 = 0) :
    lossAt m c (n + 1) = lossAt m c n + pointSum (lossRow (argA m c) (argP m c) (argN m c)) (n + 1) := by
  have h : n + 1 < cfg0.N := lt_of_lt_of_eq hn (show cfg0.N = 16 from N_0).symm
  have h' : n < cfg0.N := Nat.lt_of_succ_lt h
  unfold lossAt
  rw [dif_pos h, dif_pos h']
  refine (congrFun (loss_later_point m c ⟨n + 1, h⟩ h0) _).trans ?_
  exact stepLoss_apply (t := n + 1) hn (tile0 m c ⟨n + 1, h⟩) (tile1 m c ⟨n + 1, h⟩) (tile2 m c ⟨n + 1, h⟩) _ _

/-- After point `n` the accumulator holds the contributions of its core's points up to `n`. -/
theorem lossAt_closed (c : Dev nD) : ∀ n : ℕ, n < 16 →
    lossAt m c n = ∑ s ∈ Finset.range (n % 8 + 1), pointSum (lossRow (argA m c) (argP m c) (argN m c)) (n - n % 8 + s)
  | 0, hn => by
    rw [lossAt_first m c 0 hn rfl]
    simp
  | n + 1, hn => by
    by_cases h0 : (n + 1) % 8 = 0
    · rw [lossAt_first m c (n + 1) hn h0, h0]
      simp
    · rw [lossAt_later m c n hn h0, lossAt_closed c n (Nat.lt_of_succ_lt hn)]
      have e1 : (n + 1) % 8 = n % 8 + 1 := by omega
      have e2 : n + 1 - (n % 8 + 1) = n - n % 8 := by omega
      have e3 : n - n % 8 + (n % 8 + 1) = n + 1 := by omega
      rw [e1, e2, Finset.sum_range_succ _ (n % 8 + 1), e3]

/-- At a core's last point the accumulator holds the core's whole sum. -/
theorem lossAt_last (c : Dev nD) (n : ℕ) (hn : n < 16) (h7 : n % 8 = 7) :
    lossAt m c n = coreSum (lossRow (argA m c) (argP m c) (argN m c)) (n / 8) := by
  rw [lossAt_closed m c n hn, h7]
  unfold coreSum
  have e : n - 7 = 8 * (n / 8) := by omega
  rw [e]

/-! ## The hit accumulator, point by point -/

theorem hit_first_point (c : Dev nD) (t : Fin cfg0.N) (h0 : t.val % 8 = 0) :
    (outsAt0 m c t.val t.isLt).2.2.2 = stepHit (iblk m c 0 t) (iblk m c 1 t) (iblk m c 2 t) (k0_pay4 (F := Ideal)) := by
  have h1 : ¬t.val % 8 = 7 := by omega
  rw [outsAt0_A m c t h0 h1]
  exact first_hit (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t)

theorem hit_later_point (c : Dev nD) (t : Fin cfg0.N) (h0 : ¬t.val % 8 = 0) :
    (outsAt0 m c t.val t.isLt).2.2.2 = stepHit (iblk m c 0 t) (iblk m c 1 t) (iblk m c 2 t) (outsAt0 m c (t.val - 1) (Nat.lt_of_le_of_lt (Nat.sub_le _ _) t.isLt)).2.2.2 := by
  by_cases h1 : t.val % 8 = 7
  · rw [outsAt0_C m c t h0 h1]
    exact last_hit (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2
  · rw [outsAt0_B m c t h0 h1]
    exact middle_hit (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2

/-- The hit accumulator's one entry after point `n` (zero past the grid). -/
def hitAt (c : Dev nD) (n : ℕ) : EReal :=
  if h : n < cfg0.N then (outsAt0 m c n h).2.2.2 (ix2 (0 : Fin 1) (0 : Fin 1)) else 0

theorem hitAt_first (c : Dev nD) (n : ℕ) (hn : n < 16) (h0 : n % 8 = 0) :
    hitAt m c n = pointSum (hitRow (argA m c) (argP m c) (argN m c)) n := by
  have h : n < cfg0.N := lt_of_lt_of_eq hn (show cfg0.N = 16 from N_0).symm
  unfold hitAt
  rw [dif_pos h]
  refine (congrFun (hit_first_point m c ⟨n, h⟩ h0) _).trans ?_
  refine (stepHit_apply (t := n) hn (tile0 m c ⟨n, h⟩) (tile1 m c ⟨n, h⟩) (tile2 m c ⟨n, h⟩) _ _).trans ?_
  rw [reset_hit, zero_add]

theorem hitAt_later (c : Dev nD) (n : ℕ) (hn : n + 1 < 16) (h0 : ¬(n + 1) % 8 = 0) :
    hitAt m c (n + 1) = hitAt m c n + pointSum (hitRow (argA m c) (argP m c) (argN m c)) (n + 1) := by
  have h : n + 1 < cfg0.N := lt_of_lt_of_eq hn (show cfg0.N = 16 from N_0).symm
  have h' : n < cfg0.N := Nat.lt_of_succ_lt h
  unfold hitAt
  rw [dif_pos h, dif_pos h']
  refine (congrFun (hit_later_point m c ⟨n + 1, h⟩ h0) _).trans ?_
  exact stepHit_apply (t := n + 1) hn (tile0 m c ⟨n + 1, h⟩) (tile1 m c ⟨n + 1, h⟩) (tile2 m c ⟨n + 1, h⟩) _ _

/-- After point `n` the accumulator holds the contributions of its core's points up to `n`. -/
theorem hitAt_closed (c : Dev nD) : ∀ n : ℕ, n < 16 →
    hitAt m c n = ∑ s ∈ Finset.range (n % 8 + 1), pointSum (hitRow (argA m c) (argP m c) (argN m c)) (n - n % 8 + s)
  | 0, hn => by
    rw [hitAt_first m c 0 hn rfl]
    simp
  | n + 1, hn => by
    by_cases h0 : (n + 1) % 8 = 0
    · rw [hitAt_first m c (n + 1) hn h0, h0]
      simp
    · rw [hitAt_later m c n hn h0, hitAt_closed c n (Nat.lt_of_succ_lt hn)]
      have e1 : (n + 1) % 8 = n % 8 + 1 := by omega
      have e2 : n + 1 - (n % 8 + 1) = n - n % 8 := by omega
      have e3 : n - n % 8 + (n % 8 + 1) = n + 1 := by omega
      rw [e1, e2, Finset.sum_range_succ _ (n % 8 + 1), e3]

/-- At a core's last point the accumulator holds the core's whole sum. -/
theorem hitAt_last (c : Dev nD) (n : ℕ) (hn : n < 16) (h7 : n % 8 = 7) :
    hitAt m c n = coreSum (hitRow (argA m c) (argP m c) (argN m c)) (n / 8) := by
  rw [hitAt_closed m c n hn, h7]
  unfold coreSum
  have e : n - 7 = 8 * (n / 8) := by omega
  rw [e]

/-! ## The loss output: a core's last point broadcasts its sum into block (0, core) -/

theorem loss_out_last (c : Dev nD) (t : Fin cfg0.N) (h7 : t.val % 8 = 7) (a : Fin 8) (b : Fin 128) :
    (outsAt0 m c t.val t.isLt).1 (ix2 a b) = coreSum (lossRow (argA m c) (argP m c) (argN m c)) (t.val / 8) := by
  have h0 : ¬t.val % 8 = 0 := by omega
  have h1 : t.val % 8 = 7 := h7
  have hN : t.val < 16 := lt_of_lt_of_eq t.isLt (show cfg0.N = 16 from N_0)
  have e : (outsAt0 m c t.val t.isLt).1 = k0_pay1 (outsAt0 m c t.val t.isLt).2.2.1 := by
    rw [outsAt0_C m c t h0 h1]
    exact (out_loss (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2).trans
      (congrArg k0_pay1 (last_loss (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2).symm)
  rw [e, flush_loss]
  have := lossAt_last m c t.val hN h7
  unfold lossAt at this
  rw [dif_pos t.isLt] at this
  exact this

/-- The loss output array after the run: column `j` holds the sum of core `j / 128`, in every row. -/
def lossArray (c : Dev nD) : FVec Ideal S8x256 .f32 :=
  fun i => coreSum (lossRow (argA m c) (argP m c) (argN m c)) ((i 1).val / 128)

theorem flushed3_eq (c : Dev nD) (t : Fin cfg0.N) (hf : (cfg0.win 3).flush t = true) :
    (dats m 0 c).flushed 3 t = ((cfg0.win 3).blk t).view.read (Elt Ideal) (lossArray m c) := by
  have h7 : t.val % 8 = 7 := (flush0_3 t).mp hf
  have hi := idx_out t
  show (cfg0.win 3).cut (grid0.coords t) ((dats m 0 c).after 3 t) = _
  rw [after0_3]
  funext j
  obtain ⟨a, b, rfl⟩ : ∃ (a : Fin 8) (b : Fin 128), j = ix2 a b := ⟨j 0, j 1, eq_ix2 j⟩
  show (outsAt0 m c t.val t.isLt).1 (ix2 a b) = lossArray m c (((cfg0.win 3).blk t).view.emb (ix2 a b))
  rw [loss_out_last m c t h7 a b]
  show _ = coreSum _ ((win0_3.index t (1 : Fin 2) * 128 + 1 * b.val) / 128)
  rw [hi.1.2]
  have hb := b.isLt
  have e : (t.val / 8 * 128 + 1 * b.val) / 128 = t.val / 8 := by omega
  rw [e]

theorem mem_blk3 (t : Fin cfg0.N) (i : S8x256.Idx) :
    i ∈ ((cfg0.win 3).blk t).view.set ↔ ∀ a : Fin 2, win0_3.index t a * S8x128.size a ≤ (i a).val ∧ (i a).val < win0_3.index t a * S8x128.size a + S8x128.size a := by
  show i ∈ ((View.whole main_v0_0).slice (win0_3.rect t)).set ↔ _
  rw [View.set_slice_whole, Rect.mem_set_unit]
  exact Iff.rfl

theorem cover3 (i : S8x256.Idx) : ∃ t : Fin cfg0.N, (cfg0.win 3).flush t = true ∧ i ∈ ((cfg0.win 3).blk t).view.set := by
  have hi0 : (i 0).val < 8 := idx2_lt0 i
  have hi1 : (i 1).val < 256 := idx2_lt1 i
  have hlt : 8 * ((i 1).val / 128) + 7 < cfg0.N := lt_of_lt_of_eq (by omega : 8 * ((i 1).val / 128) + 7 < 16) (show cfg0.N = 16 from N_0).symm
  refine ⟨⟨8 * ((i 1).val / 128) + 7, hlt⟩, (flush0_3 _).mpr (by show (8 * ((i 1).val / 128) + 7) % 8 = 7; omega), ?_⟩
  have hx := idx_out ⟨8 * ((i 1).val / 128) + 7, hlt⟩
  rw [mem_blk3]
  intro a
  match a with
  | ⟨0, _⟩ =>
    show win0_3.index _ (0 : Fin 2) * 8 ≤ (i 0).val ∧ (i 0).val < win0_3.index _ (0 : Fin 2) * 8 + 8
    rw [hx.1.1]; omega
  | ⟨1, _⟩ =>
    show win0_3.index _ (1 : Fin 2) * 128 ≤ (i 1).val ∧ (i 1).val < win0_3.index _ (1 : Fin 2) * 128 + 128
    rw [hx.1.2]
    show (8 * ((i 1).val / 128) + 7) / 8 * 128 ≤ (i 1).val ∧ (i 1).val < (8 * ((i 1).val / 128) + 7) / 8 * 128 + 128
    omega

theorem final3 (c : Dev nD) : (dats m 0 c).arrAt 3 cfg0.N = lossArray m c :=
  (dats m 0 c).arrAt_eq_of_cover 3 (lossArray m c) (flushed3_eq m c) cover3

/-! ## The hit output: a core's last point broadcasts its sum into block (0, core) -/

theorem hit_out_last (c : Dev nD) (t : Fin cfg0.N) (h7 : t.val % 8 = 7) (a : Fin 8) (b : Fin 128) :
    (outsAt0 m c t.val t.isLt).2.1 (ix2 a b) = coreSum (hitRow (argA m c) (argP m c) (argN m c)) (t.val / 8) := by
  have h0 : ¬t.val % 8 = 0 := by omega
  have h1 : t.val % 8 = 7 := h7
  have hN : t.val < 16 := lt_of_lt_of_eq t.isLt (show cfg0.N = 16 from N_0)
  have e : (outsAt0 m c t.val t.isLt).2.1 = k0_pay2 (outsAt0 m c t.val t.isLt).2.2.2 := by
    rw [outsAt0_C m c t h0 h1]
    exact (out_hit (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2).trans
      (congrArg k0_pay2 (last_hit (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2).symm)
  rw [e, flush_hit]
  have := hitAt_last m c t.val hN h7
  unfold hitAt at this
  rw [dif_pos t.isLt] at this
  exact this

/-- The hit output array after the run: column `j` holds the sum of core `j / 128`, in every row. -/
def hitArray (c : Dev nD) : FVec Ideal S8x256 .f32 :=
  fun i => coreSum (hitRow (argA m c) (argP m c) (argN m c)) ((i 1).val / 128)

theorem flushed4_eq (c : Dev nD) (t : Fin cfg0.N) (hf : (cfg0.win 4).flush t = true) :
    (dats m 0 c).flushed 4 t = ((cfg0.win 4).blk t).view.read (Elt Ideal) (hitArray m c) := by
  have h7 : t.val % 8 = 7 := (flush0_4 t).mp hf
  have hi := idx_out t
  show (cfg0.win 4).cut (grid0.coords t) ((dats m 0 c).after 4 t) = _
  rw [after0_4]
  funext j
  obtain ⟨a, b, rfl⟩ : ∃ (a : Fin 8) (b : Fin 128), j = ix2 a b := ⟨j 0, j 1, eq_ix2 j⟩
  show (outsAt0 m c t.val t.isLt).2.1 (ix2 a b) = hitArray m c (((cfg0.win 4).blk t).view.emb (ix2 a b))
  rw [hit_out_last m c t h7 a b]
  show _ = coreSum _ ((win0_4.index t (1 : Fin 2) * 128 + 1 * b.val) / 128)
  rw [hi.2.2]
  have hb := b.isLt
  have e : (t.val / 8 * 128 + 1 * b.val) / 128 = t.val / 8 := by omega
  rw [e]

theorem mem_blk4 (t : Fin cfg0.N) (i : S8x256.Idx) :
    i ∈ ((cfg0.win 4).blk t).view.set ↔ ∀ a : Fin 2, win0_4.index t a * S8x128.size a ≤ (i a).val ∧ (i a).val < win0_4.index t a * S8x128.size a + S8x128.size a := by
  show i ∈ ((View.whole main_v0_1).slice (win0_4.rect t)).set ↔ _
  rw [View.set_slice_whole, Rect.mem_set_unit]
  exact Iff.rfl

theorem cover4 (i : S8x256.Idx) : ∃ t : Fin cfg0.N, (cfg0.win 4).flush t = true ∧ i ∈ ((cfg0.win 4).blk t).view.set := by
  have hi0 : (i 0).val < 8 := idx2_lt0 i
  have hi1 : (i 1).val < 256 := idx2_lt1 i
  have hlt : 8 * ((i 1).val / 128) + 7 < cfg0.N := lt_of_lt_of_eq (by omega : 8 * ((i 1).val / 128) + 7 < 16) (show cfg0.N = 16 from N_0).symm
  refine ⟨⟨8 * ((i 1).val / 128) + 7, hlt⟩, (flush0_4 _).mpr (by show (8 * ((i 1).val / 128) + 7) % 8 = 7; omega), ?_⟩
  have hx := idx_out ⟨8 * ((i 1).val / 128) + 7, hlt⟩
  rw [mem_blk4]
  intro a
  match a with
  | ⟨0, _⟩ =>
    show win0_4.index _ (0 : Fin 2) * 8 ≤ (i 0).val ∧ (i 0).val < win0_4.index _ (0 : Fin 2) * 8 + 8
    rw [hx.2.1]; omega
  | ⟨1, _⟩ =>
    show win0_4.index _ (1 : Fin 2) * 128 ≤ (i 1).val ∧ (i 1).val < win0_4.index _ (1 : Fin 2) * 128 + 128
    rw [hx.2.2]
    show (8 * ((i 1).val / 128) + 7) / 8 * 128 ≤ (i 1).val ∧ (i 1).val < (8 * ((i 1).val / 128) + 7) / 8 * 128 + 128
    omega

theorem final4 (c : Dev nD) : (dats m 0 c).arrAt 4 cfg0.N = hitArray m c :=
  (dats m 0 c).arrAt_eq_of_cover 4 (hitArray m c) (flushed4_eq m c) cover4

end Cert.TripletArrays

end
-- ==== Proof.TripletTail.lean ====
/-
  The kernel program's last lines, after its one region.

  The region leaves two [8, 256] arrays, one per result. The lines after it take row 0 of each array, flatten it to a
  vector of 256 entries, sum the vector from the zero word, divide by the word of 128 and then by the word of 16384, and
  return the two scalars. Read at the ideal values a result is therefore
      (Σ_{j < 256} A[0, j]) / 128 / 16384
  of the array A the region left, and the three argument arrays are as they were at the start.
-/
import proofs.«111520_j128849019170_2_alg».proof.Proof.Gen.KernelIdeal.Frame
import proofs.«111520_j128849019170_2_alg».proof.Proof.TripletSpec
import Idealize.ShloMosaic.Lib.Pipeline.Value
import Idealize.ShloMosaic.Lib.StableHlo.Run
import Idealize.ShloMosaic.Lib.ValueIdx
import Idealize.ShloMosaic.Lib.ValueLayout
import Idealize.ShloMosaic.PureOps.Ideal.Laws
import Idealize.ShloMosaic.Lib.Tactic

noncomputable section

namespace Cert.TripletTail

open Cert.KernelIdeal Cert.KernelIdeal.Gen Idealize.ShloMosaic Idealize.ShloMosaic.TcCoe Idealize.SL.Sem Idealize.ShloMosaic.ValueIdx
open scoped BigOperators

/-- The indices of a length-256 vector are its 256 positions. -/
def colEquiv : S256.Idx ≃ Fin 256 where
  toFun i := i 0
  invFun k := ix1 k
  left_inv i := (eq_ix1 i).symm
  right_inv _ := rfl

/-- A sum over the indices of a length-256 vector is the sum over its positions. -/
theorem sum_cols (g : S256.Idx → EReal) : ∑ i, g i = ∑ k : Fin 256, g (ix1 k) :=
  (Equiv.sum_comp colEquiv.symm g).symm

/-- Row 0 of an [8, 256] array, cut out, flattened and summed from the zero word, is the sum of the row's 256 entries:
    entry k of the flattened vector is entry (0, k) of the cut, which is entry (0, k) of the array. -/
theorem row0_sum (X : (⟨S8x256, .f32⟩ : BufTy).Contents (Elt Ideal)) :
    Host.reduceAdd (F := Ideal) (shapeCast S256 (extractStridedSlice S1x256 ![0, 0] X slices_S8x256_S1x256_0_0) shapeCasts_S1x256_S256)
        (constant S_ .f32 0x00000000#32) reducesTo_S256_S_d0 h_S_
      = fun _ => ∑ j : Fin 256, X (ix2 (0 : Fin 8) j) := by
  funext i
  simp only [Host.reduceAdd, Ideal.hostReduceAdd_def]
  rw [Ideal.hostReduceAdd_total reducesTo_S256_S_d0 (fun b => b.elim0), sum_cols]
  show Ideal.ofBits .f32 0x00000000#32 + _ = _
  rw [Ideal.ofBits_zero_f32, zero_add]
  refine Finset.sum_congr rfl fun k _ => ?_
  rw [shapeCast_1a_a_apply]
  exact slice2_axis0_apply 0 X slices_S8x256_S1x256_0_0 (0 : Fin 1) k (0 : Fin 8) rfl

/-- The last lines applied to an [8, 256] array: the sum of its row 0 divided by the word of 128, then by the word of
    16384. Neither word is evaluated. -/
theorem tail_value (X : (⟨S8x256, .f32⟩ : BufTy).Contents (Elt Ideal)) :
    Host.divf (F := Ideal) (Host.divf (F := Ideal)
        (Host.reduceAdd (F := Ideal) (shapeCast S256 (extractStridedSlice S1x256 ![0, 0] X slices_S8x256_S1x256_0_0) shapeCasts_S1x256_S256)
          (constant S_ .f32 0x00000000#32) reducesTo_S256_S_d0 h_S_)
        (constant (F := Ideal) S_ .f32 0x43000000#32)) (constant (F := Ideal) S_ .f32 0x46800000#32)
      = fun _ => Ideal.div (Ideal.div (∑ j : Fin 256, X (ix2 (0 : Fin 8) j)) (Ideal.ofBits .f32 0x43000000#32)) Cert.TripletSpec.rows := by
  rw [row0_sum]
  rfl

/-- The first result after the last lines: they read the region's first result array, which is the array the region's
    proof data computes for window 3. -/
theorem tail_loss (m : (ℓ : Loc nD τ sig) → Buf (Elt Ideal) ℓ) (c : Dev nD) :
    Pipeline.afterTail₀ cfgs (dats m) 0 (V0 m) [hostOps1] c main_v9
      = (fun _ => Ideal.div (Ideal.div (∑ j : Fin 256, (dats m 0 c).arrAt 3 cfg0.N (ix2 (0 : Fin 8) j)) (Ideal.ofBits .f32 0x43000000#32)) Cert.TripletSpec.rows) := by
  have e : Pipeline.withArrays (cfgs 0).spec c (V0 m c) (fun w => (dats m 0 c).arrAt w (cfgs 0).N) (Proc.devRef .tc main_v0_0)
      = (dats m 0 c).arrAt 3 cfg0.N := Pipeline.withArrays_arr spec0 launch0.win.arr_inj c _ _ 3
  unfold Pipeline.afterTail₀
  show StableHlo.after hostOps1 _ (Proc.devRef .tc main_v9) = _
  after_results
  rw [e]
  exact tail_value _

/-- The second result after the last lines, likewise from the region's second result array (window 4). -/
theorem tail_hit (m : (ℓ : Loc nD τ sig) → Buf (Elt Ideal) ℓ) (c : Dev nD) :
    Pipeline.afterTail₀ cfgs (dats m) 0 (V0 m) [hostOps1] c main_v10
      = (fun _ => Ideal.div (Ideal.div (∑ j : Fin 256, (dats m 0 c).arrAt 4 cfg0.N (ix2 (0 : Fin 8) j)) (Ideal.ofBits .f32 0x43000000#32)) Cert.TripletSpec.rows) := by
  have e : Pipeline.withArrays (cfgs 0).spec c (V0 m c) (fun w => (dats m 0 c).arrAt w (cfgs 0).N) (Proc.devRef .tc main_v0_1)
      = (dats m 0 c).arrAt 4 cfg0.N := Pipeline.withArrays_arr spec0 launch0.win.arr_inj c _ _ 4
  unfold Pipeline.afterTail₀
  show StableHlo.after hostOps1 _ (Proc.devRef .tc main_v10) = _
  after_results
  rw [e]
  exact tail_value _

/-- Every run of the kernel program ends with each result at the sum of row 0 of its region array divided by the two
    words, and with the three argument arrays unchanged: the two results are buffers the region bypasses, so they hold
    what the last lines compute from the region's arrays; the arguments are inputs of the region, which it leaves at
    their contents on entry. -/
theorem run_tail (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v9)
          = (fun _ => Ideal.div (Ideal.div (∑ j : Fin 256, (dats m 0 c).arrAt 3 cfg0.N (ix2 (0 : Fin 8) j)) (Ideal.ofBits .f32 0x43000000#32)) Cert.TripletSpec.rows)
      ∧ r.2.mem ((c.tc : Thread nD τ).loc main_v10)
          = (fun _ => Ideal.div (Ideal.div (∑ j : Fin 256, (dats m 0 c).arrAt 4 cfg0.N (ix2 (0 : Fin 8) j)) (Ideal.ofBits .f32 0x43000000#32)) Cert.TripletSpec.rows)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run (defs (F := Ideal)) _ _).mono (fun r h c =>
    ⟨((h c).2 main_v9 (Pipeline.mem_restRefs_of main_v9 rfl (by decide))).trans (tail_loss m c),
      ((h c).2 main_v10 (Pipeline.mem_restRefs_of main_v10 rfl (by decide))).trans (tail_hit m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩) (run_main m ρ)

end Cert.TripletTail

end
-- ==== Proof.lean ====
/-
  The triplet margin loss and accuracy kernel against its jnp reference, over the extended reals.

  Both programs return, for three [16384, 1024] arrays (anchor, positive, negative), the mean over the rows of the hinge
  term `max (d(a,p) − d(a,n) + margin) 0` and the mean of the indicator `d(a,p) > d(a,n)`, where `d` is the squared
  distance of a row pair (Proof/TripletSpec.lean). The reference computes them row by row and divides the two sums by
  16384 (Proof/TripletRef.lean). The kernel walks a 2 × 8 grid of [1024, 1024] tiles: each of the two cores adds the row
  terms of its 8 tiles, two halves of 512 rows each, into a [1, 1] accumulator, and at its last point broadcasts the
  accumulator into its [8, 128] block of an [8, 256] output; the host then sums row 0 of that output — each core's sum
  128 times —, divides by 128 and by 16384 (Proof/TripletPieces.lean, TripletPayload.lean, TripletBlocks.lean,
  TripletArrays.lean, TripletTail.lean). The sums are re-grouped freely (addition of extended reals is commutative and
  associative), and the 128 copies divided by 128 are one copy (Proof/TripletAlgebra.lean), so the two programs' results
  are equal element by element.
-/
import proofs.«111520_j128849019170_2_alg».proof.Defs
import proofs.«111520_j128849019170_2_alg».proof.Proof.Gen.Kernel
import proofs.«111520_j128849019170_2_alg».proof.Proof.Gen.Kernel.Skeleton
import proofs.«111520_j128849019170_2_alg».proof.Proof.Gen.Kernel.Launch
import proofs.«111520_j128849019170_2_alg».proof.Proof.Gen.Kernel.Points
import proofs.«111520_j128849019170_2_alg».proof.Proof.Gen.Kernel.Frame
import proofs.«111520_j128849019170_2_alg».proof.Proof.Gen.KernelIdeal
import proofs.«111520_j128849019170_2_alg».proof.Proof.Gen.KernelIdeal.Skeleton
import proofs.«111520_j128849019170_2_alg».proof.Proof.Gen.KernelIdeal.Launch
import proofs.«111520_j128849019170_2_alg».proof.Proof.Gen.KernelIdeal.Points
import proofs.«111520_j128849019170_2_alg».proof.Proof.Gen.KernelIdeal.Frame
import proofs.«111520_j128849019170_2_alg».proof.Proof.Gen.ReferenceIdeal
import proofs.«111520_j128849019170_2_alg».proof.Proof.Gen.ReferenceIdeal.Run
import proofs.«111520_j128849019170_2_alg».proof.Proof.Gen.ReferenceIdeal.Read
import proofs.«111520_j128849019170_2_alg».proof.Proof.Gen.Pre_finite_inputs
import proofs.«111520_j128849019170_2_alg».proof.Proof.TripletSpec
import proofs.«111520_j128849019170_2_alg».proof.Proof.TripletRef
import proofs.«111520_j128849019170_2_alg».proof.Proof.TripletAlgebra
import proofs.«111520_j128849019170_2_alg».proof.Proof.TripletArrays
import proofs.«111520_j128849019170_2_alg».proof.Proof.TripletTail
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments unchanged: its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Reading the kernel over the extended reals rewrote no operation. -/
theorem preserves : Cert.preserves_Kernel_KernelIdeal := trivial

/-- Both programs end with the mean hinge term and the mean indicator of the argument arrays. -/
theorem algebraic : Cert.algebraic_KernelIdeal_ReferenceIdeal := by
  intro m ρ m' ρ' _ hagree
  refine ⟨fun c _ => Cert.TripletSpec.meanOf (Cert.TripletSpec.lossRow (Cert.TripletArrays.argA m c) (Cert.TripletArrays.argP m c) (Cert.TripletArrays.argN m c)),
    fun c _ => Cert.TripletSpec.meanOf (Cert.TripletSpec.hitRow (Cert.TripletArrays.argA m c) (Cert.TripletArrays.argP m c) (Cert.TripletArrays.argN m c)), ?_, ?_⟩
  · refine (θ_run Cert.KernelIdeal.defs _ _).mono (fun r h c => ?_) (Cert.TripletTail.run_tail m ρ)
    obtain ⟨h9, h10, ha0, ha1, ha2⟩ := h c
    refine ⟨h9.trans ?_, h10.trans ?_, ha0, ha1, ha2⟩
    · rw [Cert.TripletArrays.final3]
      funext _
      exact Cert.TripletAlgebra.kernelMean_eq _
    · rw [Cert.TripletArrays.final4]
      funext _
      exact Cert.TripletAlgebra.kernelMean_eq _
  · refine (θ_run Cert.ReferenceIdeal.defs _ _).mono (fun r h c => ?_) (Cert.ReferenceIdeal.Value.run (F := Ideal) m' ρ')
    obtain ⟨h11, h15, ha0, ha1, ha2⟩ := h c
    refine ⟨h11.trans ?_, h15.trans ?_, ha0, ha1, ha2⟩
    · rw [Cert.ReferenceIdeal.Read.val_main_v11_eq, Cert.TripletRef.ref_loss, (hagree c).1, (hagree c).2.1, (hagree c).2.2]
      rfl
    · rw [Cert.ReferenceIdeal.Read.val_main_v15_eq, Cert.TripletRef.ref_hit, (hagree c).1, (hagree c).2.1, (hagree c).2.2]
      rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
